-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60_1)) (v1 : (c : Dev Cert.KernelIdeal.nD) → Buf (Elt Ideal) ((c.tc : Thread Cert.KernelIdeal.nD Cert.KernelIdeal.τ).loc Cert.KernelIdeal.main_v60_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_1) = v0 c
          ∧ r.2.mem ((c.tc : Thread Cert.KernelIdeal.nD Cert.KernelIdeal.τ).loc Cert.KernelIdeal.main_v60_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg13 : FVec F S40 .f32) (main_v48 : IVec S_ 1) (main_v49 : FVec F S128x40 .f32) (main_v50 : FVec F S128x40 .f32) : IVec S_ 1 :=
  let main_v51 : IVec S128x40 1 := cmpf .olt main_v49 main_v50
  let main_c_19 : IVec S_ 1 := constantI S_ 1 1#1
  let main_v52 : IVec S_ 1 := (fun x v => Host.reduce IntOp.andi x v reducesTo_S128x40_S_d0_1 h_S_) main_v51 main_c_19
  let main_v53 : IVec S_ 1 := andi main_v48 main_v52
  let main_v54 : FVec F S40 .f32 := Host.absf main_arg13
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg9 : FVec F S128x128 .f32) (main_arg10 : FVec F S128x128 .f32) (main_arg11 : FVec F S128 .f32) (main_arg12 : FVec F S128x40 .f32) (main_arg13 : FVec F S40 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x40 .f32 := Host.absf main_arg12
  let main_cst_18 : FVec F S_ .f32 := constant S_ .f32 0x7F800000#32
  let main_v50 : FVec F S128x40 .f32 := broadcastInDim S128x40 ![] bcast_S_S128x40 main_cst_18
  fn_part3 (F := F) main_arg13 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x40 .f32) (main_arg13 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x40 .f32) (main_arg13 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 100
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x40, .f32⟩
  | .hbm, ⟨13, _⟩ => ⟨S40, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S_, .f32⟩
  | .hbm, ⟨84, _⟩ => ⟨S1600000, .f32⟩
  | .hbm, ⟨85, _⟩ => ⟨S_, .f32⟩
  | .hbm, ⟨86, _⟩ => ⟨S100000, .f32⟩
  | .hbm, ⟨87, _⟩ => ⟨S1600000x1, .i32⟩
  | .hbm, ⟨88, _⟩ => ⟨S100000, .f32⟩
  | .hbm, ⟨89, _⟩ => ⟨S_, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S1x40, .f32⟩
  | .hbm, ⟨98, _⟩ => ⟨S100000x128, .f32⟩
  | .hbm, ⟨99, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x40, .f32⟩
  | .local _ .vmem, ⟨26, _⟩ => ⟨S1x40, .f32⟩
  | .local _ .vmem, ⟨27, _⟩ => ⟨S5000x128, .f32⟩
  | .local _ .vmem, ⟨28, _⟩ => ⟨S5000x128, .f32⟩
  | .local _ .vmem, ⟨29, _⟩ => ⟨S5000x40, .f32⟩
  | .local _ .vmem, ⟨30, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_cst_8 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_10 : Ref sig .tc := ⟨.hbm, 70, rfl⟩
abbrev main_v40 : Ref sig .tc := ⟨.hbm, 71, rfl⟩
abbrev main_v41 : Ref sig .tc := ⟨.hbm, 72, rfl⟩
abbrev main_c_11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_12 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_13 : Ref sig .tc := ⟨.hbm, 83, rfl⟩
abbrev main_v50 : Ref sig .tc := ⟨.hbm, 84, rfl⟩
abbrev main_cst_14 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_15 : Ref sig .tc := ⟨.hbm, 89, rfl⟩
abbrev main_call2_v0 : Ref sig .tc := ⟨.hbm, 90, rfl⟩
abbrev main_call2_v1 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60_0 : Ref sig .tc := ⟨.hbm, 98, rfl⟩
abbrev main_v60_1 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem8_1 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x40 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x40.size a ≤ S128x40.size a
  hwx2_5 : ∀ i : grid2.Coords, EltTy.bits .f32 = 32 ∨ (Rect.block (s := S128x40) S128x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x40.size a ≤ S100000x40.size a
  hwx2_8 : ∀ i : grid2.Coords, EltTy.bits .f32 = 32 ∨ (Rect.block (s := S100000x40) S5000x40.size (cc2_transform_8 i) (hinb2_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v60_1) S5000x40.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x40, .f32⟩
  | .hbm, ⟨13, _⟩ => ⟨S40, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S_, .f32⟩
  | .hbm, ⟨98, _⟩ => ⟨S1600000, .f32⟩
  | .hbm, ⟨99, _⟩ => ⟨S_, .f32⟩
  | .hbm, ⟨100, _⟩ => ⟨S100000, .f32⟩
  | .hbm, ⟨101, _⟩ => ⟨S1600000x1, .i32⟩
  | .hbm, ⟨102, _⟩ => ⟨S100000, .f32⟩
  | .hbm, ⟨103, _⟩ => ⟨S_, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S100000x40, .f32⟩
  | .hbm, ⟨117, _⟩ => ⟨S1x40, .f32⟩
  | .hbm, ⟨118, _⟩ => ⟨S100000x40, .f32⟩
  | .hbm, ⟨119, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call3_cst : Ref sig .tc := ⟨.hbm, 81, rfl⟩
abbrev main_call3_v0 : Ref sig .tc := ⟨.hbm, 82, rfl⟩
abbrev main_v49 : Ref sig .tc := ⟨.hbm, 83, rfl⟩
abbrev main_c_10 : Ref sig .tc := ⟨.hbm, 84, rfl⟩
abbrev main_v50 : Ref sig .tc := ⟨.hbm, 85, rfl⟩
abbrev main_v51 : Ref sig .tc := ⟨.hbm, 86, rfl⟩
abbrev main_c_11 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_13 : Ref sig .tc := ⟨.hbm, 97, rfl⟩
abbrev main_v60 : Ref sig .tc := ⟨.hbm, 98, rfl⟩
abbrev main_cst_14 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_15 : Ref sig .tc := ⟨.hbm, 103, rfl⟩
abbrev main_call4_v0 : Ref sig .tc := ⟨.hbm, 104, rfl⟩
abbrev main_call4_v1 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The idealized kernel's whole run with its two result arrays named.

  The program is three pipelined regions among stretches of host operations.  Every weakly fair execution
  terminates without a fault, and in the final memory each unscoped buffer holds what the last segment boundary's
  contents say: the two results are read there, and each argument array is as launched.
-/
import proofs.«108537_j10161892622801_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the class logits and the last layer's features end at the last boundary's contents of their buffers,
    the arguments unchanged. -/
theorem run : θ_run defs (onTc (τ := τ) (main (F := F))) ⟨m, fun _ => 0, ρ⟩ (fun r => ∀ c : Dev nD,
      r.2.mem ((c.tc : Thread nD τ).loc main_v60_1) = W12 m ρ c (Proc.devRef .tc main_v60_1)
      ∧ r.2.mem ((c.tc : Thread nD τ).loc main_v60_0) = W12 m ρ c (Proc.devRef .tc main_v60_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v60_1 (by decide)),
       h c _ (mem_uc main_v60_0 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c)⟩)

end Cert.KernelIdeal.Named

end
-- ==== Proof.KHost.lean ====
/-
  The host operations between the kernel's regions, read as functions of the buffers they start from.

  Before each of the three regions the host computes the neighbour mean of the current features (`agg`: a gather of
  the source rows, a scatter-add by destination, divided by the clipped in-degree) and lays the layer's bias out as a
  one-row array.  From any contents `X` of the buffers, the three stretches of operations before a region leave the
  mean of `X`'s features in the mean's buffer, the cast bias in the bias' buffer, and every buffer they do not write
  as it was.  The aggregation is kept as one named term and never opened.
-/
import proofs.«108537_j10161892622801_1_alg».proof.Proof.Gen.KernelIdeal.Launch
import Idealize.ShloMosaic.Lib.StableHlo.Run
import Idealize.ShloMosaic.PureOps.Ideal

set_option maxRecDepth 16384
set_option Elab.async false

noncomputable section

namespace Cert.KernelIdeal.HostSide

open Cert.KernelIdeal Cert.KernelIdeal.Gen
open Idealize.ShloMosaic Idealize.ShloMosaic.TcCoe Idealize.SL.Sem Idealize.ShloMosaic.StableHlo

/-- The mean of each node's in-neighbours' feature rows, as the host computes it: rows gathered at the (wrapped)
    source indices, summed into their destination rows, divided by the in-degree clipped below at one. -/
def agg (h : FVec Ideal S100000x128 .f32) (src dst : IVec S1600000 32) : FVec Ideal S100000x128 .f32 :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))))))

/-- The neighbours' feature rows, gathered at the (wrapped) source indices and summed into their destination rows. -/
def nsum (h : FVec Ideal S100000x128 .f32) (src dst : IVec S1600000 32) : FVec Ideal S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))

/-- The in-degrees: a one summed into each edge's destination. -/
def ndeg (dst : IVec S1600000 32) : FVec Ideal S100000 .f32 :=
  Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))

/-- The clip's lower bound, one. -/
def bound : FVec Ideal S_ .f32 := constant S_ .f32 0x3F800000#32

/-- The in-degrees clipped below at the bound. -/
def clipped (o : FVec Ideal S_ .f32) (d : FVec Ideal S100000 .f32) : FVec Ideal S100000 .f32 :=
  maximumf (broadcastInDim S100000 ![] bcast_S_S100000 (id o)) d

/-- The sums divided by the clipped in-degrees, broadcast along the features. -/
def quot (s : FVec Ideal S100000x128 .f32) (d : FVec Ideal S100000 .f32) : FVec Ideal S100000x128 .f32 :=
  Host.divf s (broadcastInDim S100000x128 ![0, 1] bcast_S100000x1_S100000x128_0_1 (broadcastInDim S100000x1 ![0] bcast_S100000_S100000x1_0 d))

/-- The mean is the quotient of the sums by the clipped in-degrees. -/
theorem agg_parts (h : FVec Ideal S100000x128 .f32) (src dst : IVec S1600000 32) :
    agg h src dst = quot (nsum h src dst) (clipped bound (ndeg dst)) := rfl

variable (X : Valuation τ sig (Elt Ideal))

/-- A buffer that no operation of a stretch writes is as it was after the stretch. -/
macro "untouched " ops:ident r:ident : term =>
  `(StableHlo.after_of_forall_not_mem (b := Proc.devRef .tc $r) _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## What the stretches leave untouched -/

theorem keep0_main_arg0 : StableHlo.after (hostOps0_2 (F := Ideal)) (StableHlo.after (hostOps0_1 (F := Ideal)) (StableHlo.after (hostOps0 (F := Ideal)) X)) (Proc.devRef .tc main_arg0) = X (Proc.devRef .tc main_arg0) :=
  (untouched hostOps0_2 main_arg0).trans ((untouched hostOps0_1 main_arg0).trans (untouched hostOps0 main_arg0))
theorem keep0_main_arg1 : StableHlo.after (hostOps0_2 (F := Ideal)) (StableHlo.after (hostOps0_1 (F := Ideal)) (StableHlo.after (hostOps0 (F := Ideal)) X)) (Proc.devRef .tc main_arg1) = X (Proc.devRef .tc main_arg1) :=
  (untouched hostOps0_2 main_arg1).trans ((untouched hostOps0_1 main_arg1).trans (untouched hostOps0 main_arg1))
theorem keep0_main_arg2 : StableHlo.after (hostOps0_2 (F := Ideal)) (StableHlo.after (hostOps0_1 (F := Ideal)) (StableHlo.after (hostOps0 (F := Ideal)) X)) (Proc.devRef .tc main_arg2) = X (Proc.devRef .tc main_arg2) :=
  (untouched hostOps0_2 main_arg2).trans ((untouched hostOps0_1 main_arg2).trans (untouched hostOps0 main_arg2))
theorem keep0_main_arg3 : StableHlo.after (hostOps0_2 (F := Ideal)) (StableHlo.after (hostOps0_1 (F := Ideal)) (StableHlo.after (hostOps0 (F := Ideal)) X)) (Proc.devRef .tc main_arg3) = X (Proc.devRef .tc main_arg3) :=
  (untouched hostOps0_2 main_arg3).trans ((untouched hostOps0_1 main_arg3).trans (untouched hostOps0 main_arg3))
theorem keep0_main_arg4 : StableHlo.after (hostOps0_2 (F := Ideal)) (StableHlo.after (hostOps0_1 (F := Ideal)) (StableHlo.after (hostOps0 (F := Ideal)) X)) (Proc.devRef .tc main_arg4) = X (Proc.devRef .tc main_arg4) :=
  (untouched hostOps0_2 main_arg4).trans ((untouched hostOps0_1 main_arg4).trans (untouched hostOps0 main_arg4))
theorem keep0_main_arg6 : StableHlo.after (hostOps0_2 (F := Ideal)) (StableHlo.after (hostOps0_1 (F := Ideal)) (StableHlo.after (hostOps0 (F := Ideal)) X)) (Proc.devRef .tc main_arg6) = X (Proc.devRef .tc main_arg6) :=
  (untouched hostOps0_2 main_arg6).trans ((untouched hostOps0_1 main_arg6).trans (untouched hostOps0 main_arg6))
theorem keep0_main_arg7 : StableHlo.after (hostOps0_2 (F := Ideal)) (StableHlo.after (hostOps0_1 (F := Ideal)) (StableHlo.after (hostOps0 (F := Ideal)) X)) (Proc.devRef .tc main_arg7) = X (Proc.devRef .tc main_arg7) :=
  (untouched hostOps0_2 main_arg7).trans ((untouched hostOps0_1 main_arg7).trans (untouched hostOps0 main_arg7))
theorem keep0_main_arg8 : StableHlo.after (hostOps0_2 (F := Ideal)) (StableHlo.after (hostOps0_1 (F := Ideal)) (StableHlo.after (hostOps0 (F := Ideal)) X)) (Proc.devRef .tc main_arg8) = X (Proc.devRef .tc main_arg8) :=
  (untouched hostOps0_2 main_arg8).trans ((untouched hostOps0_1 main_arg8).trans (untouched hostOps0 main_arg8))
theorem keep0_main_arg9 : StableHlo.after (hostOps0_2 (F := Ideal)) (StableHlo.after (hostOps0_1 (F := Ideal)) (StableHlo.after (hostOps0 (F := Ideal)) X)) (Proc.devRef .tc main_arg9) = X (Proc.devRef .tc main_arg9) :=
  (untouched hostOps0_2 main_arg9).trans ((untouched hostOps0_1 main_arg9).trans (untouched hostOps0 main_arg9))
theorem keep0_main_arg10 : StableHlo.after (hostOps0_2 (F := Ideal)) (StableHlo.after (hostOps0_1 (F := Ideal)) (StableHlo.after (hostOps0 (F := Ideal)) X)) (Proc.devRef .tc main_arg10) = X (Proc.devRef .tc main_arg10) :=
  (untouched hostOps0_2 main_arg10).trans ((untouched hostOps0_1 main_arg10).trans (untouched hostOps0 main_arg10))
theorem keep0_main_arg11 : StableHlo.after (hostOps0_2 (F := Ideal)) (StableHlo.after (hostOps0_1 (F := Ideal)) (StableHlo.after (hostOps0 (F := Ideal)) X)) (Proc.devRef .tc main_arg11) = X (Proc.devRef .tc main_arg11) :=
  (untouched hostOps0_2 main_arg11).trans ((untouched hostOps0_1 main_arg11).trans (untouched hostOps0 main_arg11))
theorem keep0_main_arg12 : StableHlo.after (hostOps0_2 (F := Ideal)) (StableHlo.after (hostOps0_1 (F := Ideal)) (StableHlo.after (hostOps0 (F := Ideal)) X)) (Proc.devRef .tc main_arg12) = X (Proc.devRef .tc main_arg12) :=
  (untouched hostOps0_2 main_arg12).trans ((untouched hostOps0_1 main_arg12).trans (untouched hostOps0 main_arg12))
theorem keep0_main_arg13 : StableHlo.after (hostOps0_2 (F := Ideal)) (StableHlo.after (hostOps0_1 (F := Ideal)) (StableHlo.after (hostOps0 (F := Ideal)) X)) (Proc.devRef .tc main_arg13) = X (Proc.devRef .tc main_arg13) :=
  (untouched hostOps0_2 main_arg13).trans ((untouched hostOps0_1 main_arg13).trans (untouched hostOps0 main_arg13))
theorem keep1_main_v19 : StableHlo.after (hostOps1_2 (F := Ideal)) (StableHlo.after (hostOps1_1 (F := Ideal)) (StableHlo.after (hostOps1 (F := Ideal)) X)) (Proc.devRef .tc main_v19) = X (Proc.devRef .tc main_v19) :=
  (untouched hostOps1_2 main_v19).trans ((untouched hostOps1_1 main_v19).trans (untouched hostOps1 main_v19))
theorem keep1_main_arg1 : StableHlo.after (hostOps1_2 (F := Ideal)) (StableHlo.after (hostOps1_1 (F := Ideal)) (StableHlo.after (hostOps1 (F := Ideal)) X)) (Proc.devRef .tc main_arg1) = X (Proc.devRef .tc main_arg1) :=
  (untouched hostOps1_2 main_arg1).trans ((untouched hostOps1_1 main_arg1).trans (untouched hostOps1 main_arg1))
theorem keep1_main_arg2 : StableHlo.after (hostOps1_2 (F := Ideal)) (StableHlo.after (hostOps1_1 (F := Ideal)) (StableHlo.after (hostOps1 (F := Ideal)) X)) (Proc.devRef .tc main_arg2) = X (Proc.devRef .tc main_arg2) :=
  (untouched hostOps1_2 main_arg2).trans ((untouched hostOps1_1 main_arg2).trans (untouched hostOps1 main_arg2))
theorem keep1_main_arg6 : StableHlo.after (hostOps1_2 (F := Ideal)) (StableHlo.after (hostOps1_1 (F := Ideal)) (StableHlo.after (hostOps1 (F := Ideal)) X)) (Proc.devRef .tc main_arg6) = X (Proc.devRef .tc main_arg6) :=
  (untouched hostOps1_2 main_arg6).trans ((untouched hostOps1_1 main_arg6).trans (untouched hostOps1 main_arg6))
theorem keep1_main_arg7 : StableHlo.after (hostOps1_2 (F := Ideal)) (StableHlo.after (hostOps1_1 (F := Ideal)) (StableHlo.after (hostOps1 (F := Ideal)) X)) (Proc.devRef .tc main_arg7) = X (Proc.devRef .tc main_arg7) :=
  (untouched hostOps1_2 main_arg7).trans ((untouched hostOps1_1 main_arg7).trans (untouched hostOps1 main_arg7))
theorem keep1_main_arg9 : StableHlo.after (hostOps1_2 (F := Ideal)) (StableHlo.after (hostOps1_1 (F := Ideal)) (StableHlo.after (hostOps1 (F := Ideal)) X)) (Proc.devRef .tc main_arg9) = X (Proc.devRef .tc main_arg9) :=
  (untouched hostOps1_2 main_arg9).trans ((untouched hostOps1_1 main_arg9).trans (untouched hostOps1 main_arg9))
theorem keep1_main_arg10 : StableHlo.after (hostOps1_2 (F := Ideal)) (StableHlo.after (hostOps1_1 (F := Ideal)) (StableHlo.after (hostOps1 (F := Ideal)) X)) (Proc.devRef .tc main_arg10) = X (Proc.devRef .tc main_arg10) :=
  (untouched hostOps1_2 main_arg10).trans ((untouched hostOps1_1 main_arg10).trans (untouched hostOps1 main_arg10))
theorem keep1_main_arg11 : StableHlo.after (hostOps1_2 (F := Ideal)) (StableHlo.after (hostOps1_1 (F := Ideal)) (StableHlo.after (hostOps1 (F := Ideal)) X)) (Proc.devRef .tc main_arg11) = X (Proc.devRef .tc main_arg11) :=
  (untouched hostOps1_2 main_arg11).trans ((untouched hostOps1_1 main_arg11).trans (untouched hostOps1 main_arg11))
theorem keep1_main_arg12 : StableHlo.after (hostOps1_2 (F := Ideal)) (StableHlo.after (hostOps1_1 (F := Ideal)) (StableHlo.after (hostOps1 (F := Ideal)) X)) (Proc.devRef .tc main_arg12) = X (Proc.devRef .tc main_arg12) :=
  (untouched hostOps1_2 main_arg12).trans ((untouched hostOps1_1 main_arg12).trans (untouched hostOps1 main_arg12))
theorem keep1_main_arg13 : StableHlo.after (hostOps1_2 (F := Ideal)) (StableHlo.after (hostOps1_1 (F := Ideal)) (StableHlo.after (hostOps1 (F := Ideal)) X)) (Proc.devRef .tc main_arg13) = X (Proc.devRef .tc main_arg13) :=
  (untouched hostOps1_2 main_arg13).trans ((untouched hostOps1_1 main_arg13).trans (untouched hostOps1 main_arg13))
theorem keep2_main_v39 : StableHlo.after (hostOps2_2 (F := Ideal)) (StableHlo.after (hostOps2_1 (F := Ideal)) (StableHlo.after (hostOps2 (F := Ideal)) X)) (Proc.devRef .tc main_v39) = X (Proc.devRef .tc main_v39) :=
  (untouched hostOps2_2 main_v39).trans ((untouched hostOps2_1 main_v39).trans (untouched hostOps2 main_v39))
theorem keep2_main_arg9 : StableHlo.after (hostOps2_2 (F := Ideal)) (StableHlo.after (hostOps2_1 (F := Ideal)) (StableHlo.after (hostOps2 (F := Ideal)) X)) (Proc.devRef .tc main_arg9) = X (Proc.devRef .tc main_arg9) :=
  (untouched hostOps2_2 main_arg9).trans ((untouched hostOps2_1 main_arg9).trans (untouched hostOps2 main_arg9))
theorem keep2_main_arg10 : StableHlo.after (hostOps2_2 (F := Ideal)) (StableHlo.after (hostOps2_1 (F := Ideal)) (StableHlo.after (hostOps2 (F := Ideal)) X)) (Proc.devRef .tc main_arg10) = X (Proc.devRef .tc main_arg10) :=
  (untouched hostOps2_2 main_arg10).trans ((untouched hostOps2_1 main_arg10).trans (untouched hostOps2 main_arg10))
theorem keep2_main_arg12 : StableHlo.after (hostOps2_2 (F := Ideal)) (StableHlo.after (hostOps2_1 (F := Ideal)) (StableHlo.after (hostOps2 (F := Ideal)) X)) (Proc.devRef .tc main_arg12) = X (Proc.devRef .tc main_arg12) :=
  (untouched hostOps2_2 main_arg12).trans ((untouched hostOps2_1 main_arg12).trans (untouched hostOps2 main_arg12))

/-! ## Before region 0 -/

theorem sum0 : StableHlo.after (hostOps0 (F := Ideal)) X (Proc.devRef .tc main_v9) = nsum (X (Proc.devRef .tc main_arg0)) (X (Proc.devRef .tc main_arg1)) (X (Proc.devRef .tc main_arg2)) := by
  after_results_simp
  rfl

theorem deg0 : StableHlo.after (hostOps0 (F := Ideal)) X (Proc.devRef .tc main_v13) = ndeg (X (Proc.devRef .tc main_arg2)) := by
  after_results_simp
  rfl

theorem one0 : StableHlo.after (hostOps0 (F := Ideal)) X (Proc.devRef .tc main_cst_3) = bound := by
  after_results_simp
  rfl

theorem clip0 : StableHlo.after (hostOps0_1 (F := Ideal)) X (Proc.devRef .tc main_v14) = clipped (X (Proc.devRef .tc main_cst_3)) (X (Proc.devRef .tc main_v13)) := by
  after_results_simp
  rfl

theorem quot0 : StableHlo.after (hostOps0_2 (F := Ideal)) X (Proc.devRef .tc main_v17) = quot (X (Proc.devRef .tc main_v9)) (X (Proc.devRef .tc main_v14)) := by
  after_results_simp
  rfl

/-- Together: the neighbour mean of the features the stretch started from. -/
theorem mean0 : StableHlo.after (hostOps0_2 (F := Ideal)) (StableHlo.after (hostOps0_1 (F := Ideal)) (StableHlo.after (hostOps0 (F := Ideal)) X)) (Proc.devRef .tc main_v17)
    = agg (X (Proc.devRef .tc main_arg0)) (X (Proc.devRef .tc main_arg1)) (X (Proc.devRef .tc main_arg2)) := by
  rw [quot0, untouched hostOps0_1 main_v9, clip0, sum0, one0, deg0, agg_parts]

theorem cast_main_v18 : StableHlo.after (hostOps0_2 (F := Ideal)) X (Proc.devRef .tc main_v18) = shapeCast S1x128 (X (Proc.devRef .tc main_arg5)) shapeCasts_S128_S1x128 := by
  after_results_simp
  rfl

/-- The bias, cast to one row. -/
theorem bias_main_v18 : StableHlo.after (hostOps0_2 (F := Ideal)) (StableHlo.after (hostOps0_1 (F := Ideal)) (StableHlo.after (hostOps0 (F := Ideal)) X)) (Proc.devRef .tc main_v18) = shapeCast S1x128 (X (Proc.devRef .tc main_arg5)) shapeCasts_S128_S1x128 := by
  rw [cast_main_v18, untouched hostOps0_1 main_arg5, untouched hostOps0 main_arg5]

/-! ## Before region 1 -/

theorem sum1 : StableHlo.after (hostOps1 (F := Ideal)) X (Proc.devRef .tc main_v29) = nsum (X (Proc.devRef .tc main_v19)) (X (Proc.devRef .tc main_arg1)) (X (Proc.devRef .tc main_arg2)) := by
  after_results_simp
  rfl

theorem deg1 : StableHlo.after (hostOps1 (F := Ideal)) X (Proc.devRef .tc main_v33) = ndeg (X (Proc.devRef .tc main_arg2)) := by
  after_results_simp
  rfl

theorem one1 : StableHlo.after (hostOps1 (F := Ideal)) X (Proc.devRef .tc main_cst_9) = bound := by
  after_results_simp
  rfl

theorem clip1 : StableHlo.after (hostOps1_1 (F := Ideal)) X (Proc.devRef .tc main_v34) = clipped (X (Proc.devRef .tc main_cst_9)) (X (Proc.devRef .tc main_v33)) := by
  after_results_simp
  rfl

theorem quot1 : StableHlo.after (hostOps1_2 (F := Ideal)) X (Proc.devRef .tc main_v37) = quot (X (Proc.devRef .tc main_v29)) (X (Proc.devRef .tc main_v34)) := by
  after_results_simp
  rfl

/-- Together: the neighbour mean of the features the stretch started from. -/
theorem mean1 : StableHlo.after (hostOps1_2 (F := Ideal)) (StableHlo.after (hostOps1_1 (F := Ideal)) (StableHlo.after (hostOps1 (F := Ideal)) X)) (Proc.devRef .tc main_v37)
    = agg (X (Proc.devRef .tc main_v19)) (X (Proc.devRef .tc main_arg1)) (X (Proc.devRef .tc main_arg2)) := by
  rw [quot1, untouched hostOps1_1 main_v29, clip1, sum1, one1, deg1, agg_parts]

theorem cast_main_v38 : StableHlo.after (hostOps1_2 (F := Ideal)) X (Proc.devRef .tc main_v38) = shapeCast S1x128 (X (Proc.devRef .tc main_arg8)) shapeCasts_S128_S1x128 := by
  after_results_simp
  rfl

/-- The bias, cast to one row. -/
theorem bias_main_v38 : StableHlo.after (hostOps1_2 (F := Ideal)) (StableHlo.after (hostOps1_1 (F := Ideal)) (StableHlo.after (hostOps1 (F := Ideal)) X)) (Proc.devRef .tc main_v38) = shapeCast S1x128 (X (Proc.devRef .tc main_arg8)) shapeCasts_S128_S1x128 := by
  rw [cast_main_v38, untouched hostOps1_1 main_arg8, untouched hostOps1 main_arg8]

/-! ## Before region 2 -/

theorem sum2 : StableHlo.after (hostOps2 (F := Ideal)) X (Proc.devRef .tc main_v49) = nsum (X (Proc.devRef .tc main_v39)) (X (Proc.devRef .tc main_arg1)) (X (Proc.devRef .tc main_arg2)) := by
  after_results_simp
  rfl

theorem deg2 : StableHlo.after (hostOps2 (F := Ideal)) X (Proc.devRef .tc main_v53) = ndeg (X (Proc.devRef .tc main_arg2)) := by
  after_results_simp
  rfl

theorem one2 : StableHlo.after (hostOps2 (F := Ideal)) X (Proc.devRef .tc main_cst_15) = bound := by
  after_results_simp
  rfl

theorem clip2 : StableHlo.after (hostOps2_1 (F := Ideal)) X (Proc.devRef .tc main_v54) = clipped (X (Proc.devRef .tc main_cst_15)) (X (Proc.devRef .tc main_v53)) := by
  after_results_simp
  rfl

theorem quot2 : StableHlo.after (hostOps2_2 (F := Ideal)) X (Proc.devRef .tc main_v57) = quot (X (Proc.devRef .tc main_v49)) (X (Proc.devRef .tc main_v54)) := by
  after_results_simp
  rfl

/-- Together: the neighbour mean of the features the stretch started from. -/
theorem mean2 : StableHlo.after (hostOps2_2 (F := Ideal)) (StableHlo.after (hostOps2_1 (F := Ideal)) (StableHlo.after (hostOps2 (F := Ideal)) X)) (Proc.devRef .tc main_v57)
    = agg (X (Proc.devRef .tc main_v39)) (X (Proc.devRef .tc main_arg1)) (X (Proc.devRef .tc main_arg2)) := by
  rw [quot2, untouched hostOps2_1 main_v49, clip2, sum2, one2, deg2, agg_parts]

theorem cast_main_v58 : StableHlo.after (hostOps2_2 (F := Ideal)) X (Proc.devRef .tc main_v58) = shapeCast S1x128 (X (Proc.devRef .tc main_arg11)) shapeCasts_S128_S1x128 := by
  after_results_simp
  rfl

/-- The bias, cast to one row. -/
theorem bias_main_v58 : StableHlo.after (hostOps2_2 (F := Ideal)) (StableHlo.after (hostOps2_1 (F := Ideal)) (StableHlo.after (hostOps2 (F := Ideal)) X)) (Proc.devRef .tc main_v58) = shapeCast S1x128 (X (Proc.devRef .tc main_arg11)) shapeCasts_S128_S1x128 := by
  rw [cast_main_v58, untouched hostOps2_1 main_arg11, untouched hostOps2 main_arg11]

theorem cast_main_v59 : StableHlo.after (hostOps2_2 (F := Ideal)) X (Proc.devRef .tc main_v59) = shapeCast S1x40 (X (Proc.devRef .tc main_arg13)) shapeCasts_S40_S1x40 := by
  after_results_simp
  rfl

/-- The bias, cast to one row. -/
theorem bias_main_v59 : StableHlo.after (hostOps2_2 (F := Ideal)) (StableHlo.after (hostOps2_1 (F := Ideal)) (StableHlo.after (hostOps2 (F := Ideal)) X)) (Proc.devRef .tc main_v59) = shapeCast S1x40 (X (Proc.devRef .tc main_arg13)) shapeCasts_S40_S1x40 := by
  rw [cast_main_v59, untouched hostOps2_1 main_arg13, untouched hostOps2 main_arg13]

end Cert.KernelIdeal.HostSide

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«108537_j10161892622801_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibSageConv.lean ====
/-
  A GraphSAGE convolution with mean aggregation, as arithmetic on the extended reals.

  With `h` the node features, `n` the neighbour means (whatever computed them), `Ws`, `Wn` the two weight matrices and
  `b` a one-row bias, a convolution is `h·Ws + n·Wn + b` (`conv`), the hidden layers rectify it (`convRelu`), and the
  classifier is one more affine map (`head`).  Every entry of a convolution depends on one row of `h` and the same row
  of `n` only (`lin_at`, `conv_at`, `convRelu_at`, `head_conv_at`): a block of rows of the result is computed from the
  same block of rows of the operands.
-/
import proofs.«108537_j10161892622801_1_alg».proof.Proof.LibDense
import proofs.«108537_j10161892622801_1_alg».proof.Proof.LibBiasRow

noncomputable section

namespace Cert.Sage

open Idealize.ShloMosaic Idealize.ShloMosaic.ValueIdx Cert.Dense Cert.BiasRow

/-- The two products of a convolution, added: `h·Ws + n·Wn`. -/
def lin {M K N : ℕ} (h n : Mat M K) (ws wn : Mat K N) : Mat M N := fun i => mm h ws i + mm n wn i

/-- A convolution: `h·Ws + n·Wn + b`. -/
def conv {M K N : ℕ} (h n : Mat M K) (ws wn : Mat K N) (b : Mat 1 N) : Mat M N := addRow (lin h n ws wn) b

/-- A rectified convolution: `max (h·Ws + n·Wn + b, 0)`. -/
def convRelu {M K N : ℕ} (h n : Mat M K) (ws wn : Mat K N) (b : Mat 1 N) : Mat M N := reluBias (lin h n ws wn) b

/-- The classifier: `x·W + b`. -/
def head {M K C : ℕ} (x : Mat M K) (w : Mat K C) (b : Mat 1 C) : Mat M C := addRow (mm x w) b

/-- An entry of `h·Ws + n·Wn` depends on the entry's row of `h` and of `n`, and on its column. -/
theorem lin_at {M M' K N : ℕ} (h n : Mat M K) (h' n' : Mat M' K) (ws wn : Mat K N)
    (j : (⟨2, ![M', N]⟩ : Shape).Idx) (i : (⟨2, ![M, N]⟩ : Shape).Idx)
    (hh : ∀ k : Fin K, h' (ix2 (c0 j) k) = h (ix2 (c0 i) k)) (hn : ∀ k : Fin K, n' (ix2 (c0 j) k) = n (ix2 (c0 i) k))
    (hc : c1 j = c1 i) : lin h' n' ws wn j = lin h n ws wn i := by
  unfold lin
  rw [mm_at h ws h' ws j i hh (fun k => by rw [hc]), mm_at n wn n' wn j i hn (fun k => by rw [hc])]

theorem conv_at {M M' K N : ℕ} (h n : Mat M K) (h' n' : Mat M' K) (ws wn : Mat K N) (b : Mat 1 N)
    (j : (⟨2, ![M', N]⟩ : Shape).Idx) (i : (⟨2, ![M, N]⟩ : Shape).Idx)
    (hh : ∀ k : Fin K, h' (ix2 (c0 j) k) = h (ix2 (c0 i) k)) (hn : ∀ k : Fin K, n' (ix2 (c0 j) k) = n (ix2 (c0 i) k))
    (hc : c1 j = c1 i) : conv h' n' ws wn b j = conv h n ws wn b i :=
  addRow_at _ b _ b j i (lin_at h n h' n' ws wn j i hh hn hc) (by rw [hc])

theorem convRelu_at {M M' K N : ℕ} (h n : Mat M K) (h' n' : Mat M' K) (ws wn : Mat K N) (b : Mat 1 N)
    (j : (⟨2, ![M', N]⟩ : Shape).Idx) (i : (⟨2, ![M, N]⟩ : Shape).Idx)
    (hh : ∀ k : Fin K, h' (ix2 (c0 j) k) = h (ix2 (c0 i) k)) (hn : ∀ k : Fin K, n' (ix2 (c0 j) k) = n (ix2 (c0 i) k))
    (hc : c1 j = c1 i) : convRelu h' n' ws wn b j = convRelu h n ws wn b i :=
  reluBias_at _ b _ b j i (lin_at h n h' n' ws wn j i hh hn hc) (by rw [hc])

/-- An entry of the classifier over a convolution depends on the entry's row of `h` and of `n`, and on its column. -/
theorem head_conv_at {M M' K N C : ℕ} (h n : Mat M K) (h' n' : Mat M' K) (ws wn : Mat K N) (b : Mat 1 N)
    (w : Mat N C) (bc : Mat 1 C) (j : (⟨2, ![M', C]⟩ : Shape).Idx) (i : (⟨2, ![M, C]⟩ : Shape).Idx)
    (hh : ∀ k : Fin K, h' (ix2 (c0 j) k) = h (ix2 (c0 i) k)) (hn : ∀ k : Fin K, n' (ix2 (c0 j) k) = n (ix2 (c0 i) k))
    (hc : c1 j = c1 i) : head (conv h' n' ws wn b) w bc j = head (conv h n ws wn b) w bc i :=
  addRow_at _ bc _ bc j i
    (mm_at _ w _ w j i
      (fun q => conv_at h n h' n' ws wn b (ix2 (c0 j) q) (ix2 (c0 i) q) hh hn rfl)
      (fun k => by rw [hc]))
    (by rw [hc])

/-- `h'` is the block of rows `o, o + 1, …` of `h`: entry `(p, k)` of `h'` is entry `(o + p, k)` of `h`. -/
def RowsAt {M M' K : ℕ} (o : ℕ) (h' : Mat M' K) (h : Mat M K) : Prop :=
  ∀ (y : (⟨2, ![M', K]⟩ : Shape).Idx) (i : (⟨2, ![M, K]⟩ : Shape).Idx),
    (i 0).val = o + (y 0).val → (i 1).val = (y 1).val → h' y = h i

/-- A block of rows of a rectified convolution is the rectified convolution of the operands' blocks of rows. -/
theorem convRelu_rows {M M' K N : ℕ} (h n : Mat M K) (h' n' : Mat M' K) (ws wn : Mat K N) (b : Mat 1 N) (o : ℕ)
    (hh : RowsAt o h' h) (hn : RowsAt o n' n)
    (j : (⟨2, ![M', N]⟩ : Shape).Idx) (i : (⟨2, ![M, N]⟩ : Shape).Idx)
    (e0 : (i 0).val = o + (j 0).val) (e1 : (i 1).val = (j 1).val) :
    convRelu h' n' ws wn b j = convRelu h n ws wn b i :=
  convRelu_at h n h' n' ws wn b j i (fun k => hh (ix2 (c0 j) k) (ix2 (c0 i) k) e0 rfl)
    (fun k => hn (ix2 (c0 j) k) (ix2 (c0 i) k) e0 rfl) (Fin.ext e1.symm)

/-- The same for a convolution that is not rectified. -/
theorem conv_rows {M M' K N : ℕ} (h n : Mat M K) (h' n' : Mat M' K) (ws wn : Mat K N) (b : Mat 1 N) (o : ℕ)
    (hh : RowsAt o h' h) (hn : RowsAt o n' n)
    (j : (⟨2, ![M', N]⟩ : Shape).Idx) (i : (⟨2, ![M, N]⟩ : Shape).Idx)
    (e0 : (i 0).val = o + (j 0).val) (e1 : (i 1).val = (j 1).val) :
    conv h' n' ws wn b j = conv h n ws wn b i :=
  conv_at h n h' n' ws wn b j i (fun k => hh (ix2 (c0 j) k) (ix2 (c0 i) k) e0 rfl)
    (fun k => hn (ix2 (c0 j) k) (ix2 (c0 i) k) e0 rfl) (Fin.ext e1.symm)

/-- And for the classifier over a convolution. -/
theorem head_conv_rows {M M' K N C : ℕ} (h n : Mat M K) (h' n' : Mat M' K) (ws wn : Mat K N) (b : Mat 1 N)
    (w : Mat N C) (bc : Mat 1 C) (o : ℕ) (hh : RowsAt o h' h) (hn : RowsAt o n' n)
    (j : (⟨2, ![M', C]⟩ : Shape).Idx) (i : (⟨2, ![M, C]⟩ : Shape).Idx)
    (e0 : (i 0).val = o + (j 0).val) (e1 : (i 1).val = (j 1).val) :
    head (conv h' n' ws wn b) w bc j = head (conv h n ws wn b) w bc i :=
  head_conv_at h n h' n' ws wn b w bc j i (fun k => hh (ix2 (c0 j) k) (ix2 (c0 i) k) e0 rfl)
    (fun k => hn (ix2 (c0 j) k) (ix2 (c0 i) k) e0 rfl) (Fin.ext e1.symm)

end Cert.Sage

end
-- ==== Proof.KBody.lean ====
/-
  The three kernel bodies as arithmetic on the extended reals.

  Each body loads a block of rows of the features and of the neighbour means, the two weight matrices and the one-row
  bias, rounds them to bf16 (the identity on the extended reals), multiplies on the matrix unit into a zero
  accumulator, adds the two products and the bias, and (the first two kernels) takes the maximum with zero; the
  last kernel also multiplies its result by the classifier's weights and adds the classifier's bias.  So what a body
  stores is the convolution of the blocks it loaded.
-/
import proofs.«108537_j10161892622801_1_alg».proof.Proof.Gen.KernelIdeal.Skeleton
import proofs.«108537_j10161892622801_1_alg».proof.Proof.LibSageConv

set_option maxRecDepth 16384

noncomputable section

namespace Cert.KernelIdeal.Body

open Cert.KernelIdeal Cert.KernelIdeal.Gen Idealize.ShloMosaic Cert.Dense Cert.BiasRow Cert.Sage

/-- The first kernel stores the rectified convolution of its blocks. -/
theorem stored0 (x0 x1 : Vec Ideal S5000x128 .f32) (x2 x3 : Vec Ideal S128x128 .f32) (x4 : Vec Ideal S1x128 .f32) :
    k0_pay1 (F := Ideal) x0 x1 x2 x3 x4 = convRelu x0 x1 x2 x3 x4 := by
  unfold k0_pay1
  dsimp only
  simp only [shapeCast_self]
  rw [vecReluBias, matmul_zero_eq_mm _ rfl rfl rfl rfl rfl rfl, matmul_zero_eq_mm _ rfl rfl rfl rfl rfl rfl]
  rfl

/-- The second kernel stores the rectified convolution of its blocks. -/
theorem stored1 (x0 x1 : Vec Ideal S5000x128 .f32) (x2 x3 : Vec Ideal S128x128 .f32) (x4 : Vec Ideal S1x128 .f32) :
    k1_pay1 (F := Ideal) x0 x1 x2 x3 x4 = convRelu x0 x1 x2 x3 x4 := by
  unfold k1_pay1
  dsimp only
  simp only [shapeCast_self]
  rw [vecReluBias, matmul_zero_eq_mm _ rfl rfl rfl rfl rfl rfl, matmul_zero_eq_mm _ rfl rfl rfl rfl rfl rfl]
  rfl

/-- The third kernel's first store is the convolution of its blocks, not rectified. -/
theorem stored2 (x0 x1 : Vec Ideal S5000x128 .f32) (x2 x3 : Vec Ideal S128x128 .f32) (x4 : Vec Ideal S1x128 .f32) :
    k2_pay1 (F := Ideal) x0 x1 x2 x3 x4 = conv x0 x1 x2 x3 x4 := by
  unfold k2_pay1
  dsimp only
  simp only [shapeCast_self]
  rw [vecAddRow, matmul_zero_eq_mm _ rfl rfl rfl rfl rfl rfl, matmul_zero_eq_mm _ rfl rfl rfl rfl rfl rfl]
  rfl

/-- Its second store is the classifier applied to that convolution. -/
theorem stored2c (x0 x1 : Vec Ideal S5000x128 .f32) (x2 x3 : Vec Ideal S128x128 .f32) (x4 : Vec Ideal S1x128 .f32)
    (x5 : Vec Ideal S128x40 .f32) (x6 : Vec Ideal S1x40 .f32) :
    k2_pay2 (F := Ideal) x0 x1 x2 x3 x4 x5 x6 = head (conv x0 x1 x2 x3 x4) x5 x6 := by
  unfold k2_pay2
  dsimp only
  simp only [shapeCast_self]
  rw [vecAddRow, matmul_zero_eq_mm _ rfl rfl rfl rfl rfl rfl, stored2]
  rfl

end Cert.KernelIdeal.Body

end
-- ==== Proof.KReg0.lean ====
/-
  Region 0 of the kernel: the array it leaves, as one function of the arrays it finds.

  The grid has 20 points; point `t` loads rows `5000 t … 5000 t + 4999` of the features and of the neighbour means,
  the whole weight matrices and the whole one-row bias, and writes back the same rows of the result.  What it writes
  back is the rectified convolution of the loaded blocks, which is that block of rows of the rectified convolution of
  the whole arrays (a row of a convolution depends on the same row of the features and of the means only); the
  twenty blocks tile the result array.  All of it holds for any contents `V` of the buffers at the region's entry.
-/
import proofs.«108537_j10161892622801_1_alg».proof.Proof.Gen.KernelIdeal.Frame
import proofs.«108537_j10161892622801_1_alg».proof.Proof.KBody
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Cert.Dense Cert.BiasRow Cert.Sage

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-blocked windows are at block `t` of the rows, everything else at
    block zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The features' block at point `t` is rows `5000 t …` of the features. -/
theorem rows_feat (c : Dev nD) (t : Fin cfg0.N) : RowsAt (M := 100000) (M' := 5000) (K := 128) (t.val * 5000) (iblk0 V c 0 t) (V c main_arg0) := by
  intro y i e0 e1
  obtain ⟨f0, f1, -⟩ := index_facts t
  show V c main_arg0 (((cfg0.win 0).blk t).view.emb y) = V c main_arg0 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The neighbour means' block at point `t` is rows `5000 t …` of the means. -/
theorem rows_mean (c : Dev nD) (t : Fin cfg0.N) : RowsAt (M := 100000) (M' := 5000) (K := 128) (t.val * 5000) (iblk0 V c 1 t) (V c main_v17) := by
  intro y i e0 e1
  obtain ⟨-, -, f0, f1, -⟩ := index_facts t
  show V c main_v17 (((cfg0.win 1).blk t).view.emb y) = V c main_v17 i
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The self weights' block is the whole matrix. -/
theorem whole_ws (c : Dev nD) (t : Fin cfg0.N) : iblk0 V c 2 t = V c main_arg3 := by
  obtain ⟨-, -, -, -, f0, f1, -⟩ := index_facts t
  funext y
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The neighbour weights' block is the whole matrix. -/
theorem whole_wn (c : Dev nD) (t : Fin cfg0.N) : iblk0 V c 3 t = V c main_arg4 := by
  obtain ⟨-, -, -, -, -, -, f0, f1, -⟩ := index_facts t
  funext y
  show V c main_arg4 (((cfg0.win 3).blk t).view.emb y) = V c main_arg4 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias' block is the whole row. -/
theorem whole_b (c : Dev nD) (t : Fin cfg0.N) : iblk0 V c 4 t = V c main_v18 := by
  obtain ⟨-, -, -, -, -, -, -, -, f0, f1, -⟩ := index_facts t
  funext y
  show V c main_v18 (((cfg0.win 4).blk t).view.emb y) = V c main_v18 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What point `t` writes back is its block of rows of the rectified convolution of the whole arrays. -/
theorem flushed_eq (c : Dev nD) (t : Fin cfg0.N) :
    (dat0 V c).flushed 5 t = ((cfg0.win 5).blk t).view.read (Elt Ideal)
      (convRelu (M := 100000) (K := 128) (N := 128) (V c main_arg0) (V c main_v17) (V c main_arg3) (V c main_arg4) (V c main_v18)) := by
  show (cfg0.win 5).cut (grid0.coords t) ((dat0 V c).after 5 t) = _
  rw [after0_5]
  unfold out0_5
  rw [View.canon_unit_zero zeros]
  simp only [View.ld_unit_zero (S := S5000x128) zeros, View.ld_unit_zero (S := S128x128) zeros,
    View.ld_unit_zero (S := S1x128) zeros]
  rw [Cert.KernelIdeal.Body.stored0, whole_ws V c t, whole_wn V c t, whole_b V c t]
  obtain ⟨-, -, -, -, -, -, -, -, -, -, f0, f1⟩ := index_facts t
  funext j
  show convRelu (M := 5000) (K := 128) (N := 128) (iblk0 V c 0 t) (iblk0 V c 1 t) (V c main_arg3) (V c main_arg4) (V c main_v18) j
    = convRelu (M := 100000) (K := 128) (N := 128) (V c main_arg0) (V c main_v17) (V c main_arg3) (V c main_arg4) (V c main_v18) (((cfg0.win 5).blk t).view.emb j)
  refine convRelu_rows (M := 100000) (M' := 5000) (K := 128) (N := 128) (V c main_arg0) (V c main_v17) (iblk0 V c 0 t) (iblk0 V c 1 t) (V c main_arg3) (V c main_arg4) (V c main_v18)
    (t.val * 5000) (rows_feat V c t) (rows_mean V c t) j _ ?_ ?_
  · show win0_5.index t (0 : Fin 2) * 5000 + 1 * (j 0).val = t.val * 5000 + (j 0).val; omega
  · show win0_5.index t (1 : Fin 2) * 128 + 1 * (j 1).val = (j 1).val; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- The twenty blocks of rows tile the result array: row `r` is in block `r / 5000`. -/
theorem cover (i : S100000x128.Idx) :
    ∃ t : Fin cfg0.N, (cfg0.win 5).flush t = true ∧ i ∈ ((cfg0.win 5).blk t).view.set := by
  have hN : cfg0.N = 20 := N_0
  have h0 : (i 0).val < 100000 := (i 0).isLt
  have h1 : (i 1).val < 128 := (i 1).isLt
  have ht : (i 0).val / 5000 < cfg0.N := by rw [hN]; omega
  obtain ⟨-, -, -, -, -, -, -, -, -, -, f0, f1⟩ := index_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [f0]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [f1]
    omega

/-- The region leaves the rectified convolution of the arrays it found. -/
theorem final (c : Dev nD) : (dat0 V c).arrAt 5 cfg0.N
    = convRelu (M := 100000) (K := 128) (N := 128) (V c main_arg0) (V c main_v17) (V c main_arg3) (V c main_arg4) (V c main_v18) :=
  (dat0 V c).arrAt_eq_of_cover 5 _ (fun t _ => flushed_eq V c t) cover

end Cert.KernelIdeal.Region0

end
-- ==== Proof.KReg1.lean ====
/-
  Region 1 of the kernel: the array it leaves, as one function of the arrays it finds.

  The grid has 20 points; point `t` loads rows `5000 t … 5000 t + 4999` of the features and of the neighbour means,
  the whole weight matrices and the whole one-row bias, and writes back the same rows of the result.  What it writes
  back is the rectified convolution of the loaded blocks, which is that block of rows of the rectified convolution of
  the whole arrays (a row of a convolution depends on the same row of the features and of the means only); the
  twenty blocks tile the result array.  All of it holds for any contents `V` of the buffers at the region's entry.
-/
import proofs.«108537_j10161892622801_1_alg».proof.Proof.Gen.KernelIdeal.Frame
import proofs.«108537_j10161892622801_1_alg».proof.Proof.KBody
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)
open Cert.Dense Cert.BiasRow Cert.Sage

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-blocked windows are at block `t` of the rows, everything else at
    block zero. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The features' block at point `t` is rows `5000 t …` of the features. -/
theorem rows_feat (c : Dev nD) (t : Fin cfg1.N) : RowsAt (M := 100000) (M' := 5000) (K := 128) (t.val * 5000) (iblk1 V c 0 t) (V c main_v19) := by
  intro y i e0 e1
  obtain ⟨f0, f1, -⟩ := index_facts t
  show V c main_v19 (((cfg1.win 0).blk t).view.emb y) = V c main_v19 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The neighbour means' block at point `t` is rows `5000 t …` of the means. -/
theorem rows_mean (c : Dev nD) (t : Fin cfg1.N) : RowsAt (M := 100000) (M' := 5000) (K := 128) (t.val * 5000) (iblk1 V c 1 t) (V c main_v37) := by
  intro y i e0 e1
  obtain ⟨-, -, f0, f1, -⟩ := index_facts t
  show V c main_v37 (((cfg1.win 1).blk t).view.emb y) = V c main_v37 i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- The self weights' block is the whole matrix. -/
theorem whole_ws (c : Dev nD) (t : Fin cfg1.N) : iblk1 V c 2 t = V c main_arg6 := by
  obtain ⟨-, -, -, -, f0, f1, -⟩ := index_facts t
  funext y
  show V c main_arg6 (((cfg1.win 2).blk t).view.emb y) = V c main_arg6 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The neighbour weights' block is the whole matrix. -/
theorem whole_wn (c : Dev nD) (t : Fin cfg1.N) : iblk1 V c 3 t = V c main_arg7 := by
  obtain ⟨-, -, -, -, -, -, f0, f1, -⟩ := index_facts t
  funext y
  show V c main_arg7 (((cfg1.win 3).blk t).view.emb y) = V c main_arg7 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias' block is the whole row. -/
theorem whole_b (c : Dev nD) (t : Fin cfg1.N) : iblk1 V c 4 t = V c main_v38 := by
  obtain ⟨-, -, -, -, -, -, -, -, f0, f1, -⟩ := index_facts t
  funext y
  show V c main_v38 (((cfg1.win 4).blk t).view.emb y) = V c main_v38 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- What point `t` writes back is its block of rows of the rectified convolution of the whole arrays. -/
theorem flushed_eq (c : Dev nD) (t : Fin cfg1.N) :
    (dat1 V c).flushed 5 t = ((cfg1.win 5).blk t).view.read (Elt Ideal)
      (convRelu (M := 100000) (K := 128) (N := 128) (V c main_v19) (V c main_v37) (V c main_arg6) (V c main_arg7) (V c main_v38)) := by
  show (cfg1.win 5).cut (grid1.coords t) ((dat1 V c).after 5 t) = _
  rw [after1_5]
  unfold out1_5
  rw [View.canon_unit_zero zeros]
  simp only [View.ld_unit_zero (S := S5000x128) zeros, View.ld_unit_zero (S := S128x128) zeros,
    View.ld_unit_zero (S := S1x128) zeros]
  rw [Cert.KernelIdeal.Body.stored1, whole_ws V c t, whole_wn V c t, whole_b V c t]
  obtain ⟨-, -, -, -, -, -, -, -, -, -, f0, f1⟩ := index_facts t
  funext j
  show convRelu (M := 5000) (K := 128) (N := 128) (iblk1 V c 0 t) (iblk1 V c 1 t) (V c main_arg6) (V c main_arg7) (V c main_v38) j
    = convRelu (M := 100000) (K := 128) (N := 128) (V c main_v19) (V c main_v37) (V c main_arg6) (V c main_arg7) (V c main_v38) (((cfg1.win 5).blk t).view.emb j)
  refine convRelu_rows (M := 100000) (M' := 5000) (K := 128) (N := 128) (V c main_v19) (V c main_v37) (iblk1 V c 0 t) (iblk1 V c 1 t) (V c main_arg6) (V c main_arg7) (V c main_v38)
    (t.val * 5000) (rows_feat V c t) (rows_mean V c t) j _ ?_ ?_
  · show win1_5.index t (0 : Fin 2) * 5000 + 1 * (j 0).val = t.val * 5000 + (j 0).val; omega
  · show win1_5.index t (1 : Fin 2) * 128 + 1 * (j 1).val = (j 1).val; omega

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The twenty blocks of rows tile the result array: row `r` is in block `r / 5000`. -/
theorem cover (i : S100000x128.Idx) :
    ∃ t : Fin cfg1.N, (cfg1.win 5).flush t = true ∧ i ∈ ((cfg1.win 5).blk t).view.set := by
  have hN : cfg1.N = 20 := N_1
  have h0 : (i 0).val < 100000 := (i 0).isLt
  have h1 : (i 1).val < 128 := (i 1).isLt
  have ht : (i 0).val / 5000 < cfg1.N := by rw [hN]; omega
  obtain ⟨-, -, -, -, -, -, -, -, -, -, f0, f1⟩ := index_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [f0]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [f1]
    omega

/-- The region leaves the rectified convolution of the arrays it found. -/
theorem final (c : Dev nD) : (dat1 V c).arrAt 5 cfg1.N
    = convRelu (M := 100000) (K := 128) (N := 128) (V c main_v19) (V c main_v37) (V c main_arg6) (V c main_arg7) (V c main_v38) :=
  (dat1 V c).arrAt_eq_of_cover 5 _ (fun t _ => flushed_eq V c t) cover

end Cert.KernelIdeal.Region1

end
-- ==== Proof.KReg2.lean ====
/-
  Region 2 of the kernel: the two arrays it leaves, as functions of the arrays it finds.

  The grid has 20 points; point `t` loads rows `5000 t … 5000 t + 4999` of the features and of the neighbour means,
  the whole weight matrices, biases and classifier, and writes back the same rows of the output convolution and of
  the class logits.  What it writes back is the convolution of the loaded blocks, and the classifier of that, which
  are those blocks of rows of the convolution of the whole arrays and of its classifier; the twenty blocks tile
  each result array.  All of it holds for any contents `V` of the buffers at the region's entry.
-/
import proofs.«108537_j10161892622801_1_alg».proof.Proof.Gen.KernelIdeal.Frame
import proofs.«108537_j10161892622801_1_alg».proof.Proof.KBody
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)
open Cert.Dense Cert.BiasRow Cert.Sage

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the grid: the row-blocked windows are at block `t` of the rows, everything else at
    block zero. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The features' block at point `t` is rows `5000 t …` of the features. -/
theorem rows_feat (c : Dev nD) (t : Fin cfg2.N) : RowsAt (M := 100000) (M' := 5000) (K := 128) (t.val * 5000) (iblk2 V c 0 t) (V c main_v39) := by
  intro y i e0 e1
  obtain ⟨f0, f1, -⟩ := index_facts t
  show V c main_v39 (((cfg2.win 0).blk t).view.emb y) = V c main_v39 i
  refine congrArg _ (funext fun a => Fin.ext ?_)
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The neighbour means' block at point `t` is rows `5000 t …` of the means. -/
theorem rows_mean (c : Dev nD) (t : Fin cfg2.N) : RowsAt (M := 100000) (M' := 5000) (K := 128) (t.val * 5000) (iblk2 V c 1 t) (V c main_v57) := by
  intro y i e0 e1
  obtain ⟨-, -, f0, f1, -⟩ := index_facts t
  show V c main_v57 (((cfg2.win 1).blk t).view.emb y) = V c main_v57 i
  refine congrArg _ (funext fun a => Fin.ext ?_)
  match a with
  | ⟨0, _⟩ => show win2_1.index t (0 : Fin 2) * 5000 + 1 * (y 0).val = (i 0).val; omega
  | ⟨1, _⟩ => show win2_1.index t (1 : Fin 2) * 128 + 1 * (y 1).val = (i 1).val; omega

/-- The self weights' block is the whole matrix. -/
theorem whole_ws (c : Dev nD) (t : Fin cfg2.N) : iblk2 V c 2 t = V c main_arg9 := by
  obtain ⟨-, -, -, -, f0, f1, -⟩ := index_facts t
  funext y
  show V c main_arg9 (((cfg2.win 2).blk t).view.emb y) = V c main_arg9 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The neighbour weights' block is the whole matrix. -/
theorem whole_wn (c : Dev nD) (t : Fin cfg2.N) : iblk2 V c 3 t = V c main_arg10 := by
  obtain ⟨-, -, -, -, -, -, f0, f1, -⟩ := index_facts t
  funext y
  show V c main_arg10 (((cfg2.win 3).blk t).view.emb y) = V c main_arg10 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias' block is the whole row. -/
theorem whole_b (c : Dev nD) (t : Fin cfg2.N) : iblk2 V c 4 t = V c main_v58 := by
  obtain ⟨-, -, -, -, -, -, -, -, f0, f1, -⟩ := index_facts t
  funext y
  show V c main_v58 (((cfg2.win 4).blk t).view.emb y) = V c main_v58 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The classifier weights' block is the whole matrix. -/
theorem whole_fcw (c : Dev nD) (t : Fin cfg2.N) : iblk2 V c 5 t = V c main_arg12 := by
  obtain ⟨-, -, -, -, -, -, -, -, -, -, f0, f1, -⟩ := index_facts t
  funext y
  show V c main_arg12 (((cfg2.win 5).blk t).view.emb y) = V c main_arg12 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 40 + 1 * (y 1).val = (y 1).val; omega

/-- The classifier bias' block is the whole row. -/
theorem whole_fcb (c : Dev nD) (t : Fin cfg2.N) : iblk2 V c 6 t = V c main_v59 := by
  obtain ⟨-, -, -, -, -, -, -, -, -, -, -, -, f0, f1, -⟩ := index_facts t
  funext y
  show V c main_v59 (((cfg2.win 6).blk t).view.emb y) = V c main_v59 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 40 + 1 * (y 1).val = (y 1).val; omega

/-- What point `t` writes back to the features' result is its block of rows of the convolution of the whole arrays. -/
theorem flushed_feat (c : Dev nD) (t : Fin cfg2.N) :
    (dat2 V c).flushed 7 t = ((cfg2.win 7).blk t).view.read (Elt Ideal)
      (conv (M := 100000) (K := 128) (N := 128) (V c main_v39) (V c main_v57) (V c main_arg9) (V c main_arg10) (V c main_v58)) := by
  show (cfg2.win 7).cut (grid2.coords t) ((dat2 V c).after 7 t) = _
  rw [after2_7]
  unfold out2_7
  rw [View.canon_unit_zero zeros]
  simp only [View.ld_unit_zero (S := S5000x128) zeros, View.ld_unit_zero (S := S128x128) zeros,
    View.ld_unit_zero (S := S1x128) zeros]
  rw [Cert.KernelIdeal.Body.stored2, whole_ws V c t, whole_wn V c t, whole_b V c t]
  obtain ⟨-, -, -, -, -, -, -, -, -, -, -, -, -, -, f0, f1, -⟩ := index_facts t
  funext j
  show conv (M := 5000) (K := 128) (N := 128) (iblk2 V c 0 t) (iblk2 V c 1 t) (V c main_arg9) (V c main_arg10) (V c main_v58) j
    = conv (M := 100000) (K := 128) (N := 128) (V c main_v39) (V c main_v57) (V c main_arg9) (V c main_arg10) (V c main_v58) (((cfg2.win 7).blk t).view.emb j)
  refine conv_rows (M := 100000) (M' := 5000) (K := 128) (N := 128) (V c main_v39) (V c main_v57) (iblk2 V c 0 t) (iblk2 V c 1 t) (V c main_arg9) (V c main_arg10) (V c main_v58)
    (t.val * 5000) (rows_feat V c t) (rows_mean V c t) j _ ?_ ?_
  · show win2_7.index t (0 : Fin 2) * 5000 + 1 * (j 0).val = t.val * 5000 + (j 0).val; omega
  · show win2_7.index t (1 : Fin 2) * 128 + 1 * (j 1).val = (j 1).val; omega

/-- What point `t` writes back to the logits is its block of rows of the classifier of that convolution. -/
theorem flushed_logits (c : Dev nD) (t : Fin cfg2.N) :
    (dat2 V c).flushed 8 t = ((cfg2.win 8).blk t).view.read (Elt Ideal)
      (head (M := 100000) (K := 128) (C := 40) (conv (M := 100000) (K := 128) (N := 128) (V c main_v39) (V c main_v57) (V c main_arg9) (V c main_arg10) (V c main_v58)) (V c main_arg12) (V c main_v59)) := by
  show (cfg2.win 8).cut (grid2.coords t) ((dat2 V c).after 8 t) = _
  rw [after2_8]
  unfold out2_8
  rw [View.canon_unit_zero zeros]
  simp only [View.ld_unit_zero (S := S5000x128) zeros, View.ld_unit_zero (S := S128x128) zeros,
    View.ld_unit_zero (S := S1x128) zeros, View.ld_unit_zero (S := S128x40) zeros, View.ld_unit_zero (S := S1x40) zeros]
  rw [Cert.KernelIdeal.Body.stored2c, whole_ws V c t, whole_wn V c t, whole_b V c t, whole_fcw V c t, whole_fcb V c t]
  obtain ⟨-, -, -, -, -, -, -, -, -, -, -, -, -, -, -, -, f0, f1⟩ := index_facts t
  funext j
  show head (M := 5000) (K := 128) (C := 40) (conv (M := 5000) (K := 128) (N := 128) (iblk2 V c 0 t) (iblk2 V c 1 t) (V c main_arg9) (V c main_arg10) (V c main_v58)) (V c main_arg12) (V c main_v59) j
    = head (M := 100000) (K := 128) (C := 40) (conv (M := 100000) (K := 128) (N := 128) (V c main_v39) (V c main_v57) (V c main_arg9) (V c main_arg10) (V c main_v58)) (V c main_arg12) (V c main_v59) (((cfg2.win 8).blk t).view.emb j)
  refine head_conv_rows (M := 100000) (M' := 5000) (K := 128) (N := 128) (C := 40) (V c main_v39) (V c main_v57) (iblk2 V c 0 t) (iblk2 V c 1 t) (V c main_arg9) (V c main_arg10) (V c main_v58) (V c main_arg12) (V c main_v59)
    (t.val * 5000) (rows_feat V c t) (rows_mean V c t) j _ ?_ ?_
  · show win2_8.index t (0 : Fin 2) * 5000 + 1 * (j 0).val = t.val * 5000 + (j 0).val; omega
  · show win2_8.index t (1 : Fin 2) * 40 + 1 * (j 1).val = (j 1).val; omega

/-- An index of the features' result is in point `t`'s block iff each coordinate is in the block's range. -/
theorem mem_blk_feat (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v60_0).slice (win2_7.rect t)).set ↔ _
  rw [View.set_slice_whole, Rect.mem_set_unit]
  exact Iff.rfl

/-- An index of the logits is in point `t`'s block iff each coordinate is in the block's range. -/
theorem mem_blk_logits (t : Fin cfg2.N) (i : S100000x40.Idx) :
    i ∈ ((cfg2.win 8).blk t).view.set ↔ ∀ a : Fin 2, win2_8.index t a * S5000x40.size a ≤ (i a).val ∧ (i a).val < win2_8.index t a * S5000x40.size a + S5000x40.size a := by
  show i ∈ ((View.whole main_v60_1).slice (win2_8.rect t)).set ↔ _
  rw [View.set_slice_whole, Rect.mem_set_unit]
  exact Iff.rfl

/-- The twenty blocks of rows tile the features' result: row `r` is in block `r / 5000`. -/
theorem cover_feat (i : S100000x128.Idx) :
    ∃ t : Fin cfg2.N, (cfg2.win 7).flush t = true ∧ i ∈ ((cfg2.win 7).blk t).view.set := by
  have hN : cfg2.N = 20 := N_2
  have h0 : (i 0).val < 100000 := (i 0).isLt
  have h1 : (i 1).val < 128 := (i 1).isLt
  have ht : (i 0).val / 5000 < cfg2.N := by rw [hN]; omega
  obtain ⟨-, -, -, -, -, -, -, -, -, -, -, -, -, -, f0, f1, -⟩ := index_facts ⟨(i 0).val / 5000, ht⟩
  refine ⟨⟨(i 0).val / 5000, ht⟩, flush2_7 _, ?_⟩
  rw [mem_blk_feat]
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [f0]
    show (i 0).val / 5000 * 5000 ≤ (i 0).val ∧ (i 0).val < (i 0).val / 5000 * 5000 + 5000
    omega
  | ⟨1, _⟩ =>
    show win2_7.index ⟨(i 0).val / 5000, ht⟩ (1 : Fin 2) * 128 ≤ (i 1).val ∧ (i 1).val < win2_7.index ⟨(i 0).val / 5000, ht⟩ (1 : Fin 2) * 128 + 128
    rw [f1]
    omega

/-- The twenty blocks of rows tile the logits: row `r` is in block `r / 5000`. -/
theorem cover_logits (i : S100000x40.Idx) :
    ∃ t : Fin cfg2.N, (cfg2.win 8).flush t = true ∧ i ∈ ((cfg2.win 8).blk t).view.set := by
  have hN : cfg2.N = 20 := N_2
  have h0 : (i 0).val < 100000 := (i 0).isLt
  have h1 : (i 1).val < 40 := (i 1).isLt
  have ht : (i 0).val / 5000 < cfg2.N := by rw [hN]; omega
  obtain ⟨-, -, -, -, -, -, -, -, -, -, -, -, -, -, -, -, f0, f1⟩ := index_facts ⟨(i 0).val / 5000, ht⟩
  refine ⟨⟨(i 0).val / 5000, ht⟩, flush2_8 _, ?_⟩
  rw [mem_blk_logits]
  intro a
  match a with
  | ⟨0, _⟩ =>
    show win2_8.index ⟨(i 0).val / 5000, ht⟩ (0 : Fin 2) * 5000 ≤ (i 0).val ∧ (i 0).val < win2_8.index ⟨(i 0).val / 5000, ht⟩ (0 : Fin 2) * 5000 + 5000
    rw [f0]
    show (i 0).val / 5000 * 5000 ≤ (i 0).val ∧ (i 0).val < (i 0).val / 5000 * 5000 + 5000
    omega
  | ⟨1, _⟩ =>
    show win2_8.index ⟨(i 0).val / 5000, ht⟩ (1 : Fin 2) * 40 ≤ (i 1).val ∧ (i 1).val < win2_8.index ⟨(i 0).val / 5000, ht⟩ (1 : Fin 2) * 40 + 40
    rw [f1]
    omega

/-- The region leaves, in the features' result, the convolution of the arrays it found. -/
theorem final_feat (c : Dev nD) : (dat2 V c).arrAt 7 cfg2.N
    = conv (M := 100000) (K := 128) (N := 128) (V c main_v39) (V c main_v57) (V c main_arg9) (V c main_arg10) (V c main_v58) :=
  (dat2 V c).arrAt_eq_of_cover 7 _ (fun t _ => flushed_feat V c t) cover_feat

/-- And in the logits, the classifier of that convolution. -/
theorem final_logits (c : Dev nD) : (dat2 V c).arrAt 8 cfg2.N
    = head (M := 100000) (K := 128) (C := 40) (conv (M := 100000) (K := 128) (N := 128) (V c main_v39) (V c main_v57) (V c main_arg9) (V c main_arg10) (V c main_v58)) (V c main_arg12) (V c main_v59) :=
  (dat2 V c).arrAt_eq_of_cover 8 _ (fun t _ => flushed_logits V c t) cover_logits

end Cert.KernelIdeal.Region2

end
-- ==== Proof.KChain.lean ====
/-
  The kernel's two results, followed through its three regions and the host operations between them.

  From the launch memory the host computes the neighbour mean of the input features and lays out the first bias;
  region 0 leaves the first hidden layer; the host aggregates that layer and lays out the second bias; region 1 leaves
  the second hidden layer; the host aggregates it and lays out the last bias and the classifier's; region 2 leaves the
  output convolution and the class logits.  No operation and no region writes an argument array, so each layer reads
  the arguments as launched.
-/
import proofs.«108537_j10161892622801_1_alg».proof.Proof.KHost
import proofs.«108537_j10161892622801_1_alg».proof.Proof.KReg0
import proofs.«108537_j10161892622801_1_alg».proof.Proof.KReg1
import proofs.«108537_j10161892622801_1_alg».proof.Proof.KReg2

set_option maxRecDepth 16384

noncomputable section

namespace Cert.KernelIdeal.Chain

open Cert.KernelIdeal Cert.KernelIdeal.Gen Cert.KernelIdeal.HostSide
open Idealize.ShloMosaic Idealize.ShloMosaic.TcCoe Idealize.SL.Sem
open Cert.Dense Cert.BiasRow Cert.Sage

/-- A rectified layer over the host's neighbour mean, the bias cast to one row. -/
def layerRelu (x : FVec Ideal S100000x128 .f32) (src dst : IVec S1600000 32) (ws wn : FVec Ideal S128x128 .f32)
    (b : FVec Ideal S128 .f32) : FVec Ideal S100000x128 .f32 :=
  convRelu (M := 100000) (K := 128) (N := 128) x (agg x src dst) ws wn (shapeCast S1x128 b shapeCasts_S128_S1x128)

/-- The output layer, not rectified. -/
def layerLin (x : FVec Ideal S100000x128 .f32) (src dst : IVec S1600000 32) (ws wn : FVec Ideal S128x128 .f32)
    (b : FVec Ideal S128 .f32) : FVec Ideal S100000x128 .f32 :=
  conv (M := 100000) (K := 128) (N := 128) x (agg x src dst) ws wn (shapeCast S1x128 b shapeCasts_S128_S1x128)

/-- The classifier, its bias cast to one row. -/
def classify (x : FVec Ideal S100000x128 .f32) (w : FVec Ideal S128x40 .f32) (b : FVec Ideal S40 .f32) :
    FVec Ideal S100000x40 .f32 :=
  head (M := 100000) (K := 128) (C := 40) x w (shapeCast S1x40 b shapeCasts_S40_S1x40)

variable (m : (ℓ : Loc nD τ sig) → Buf (Elt Ideal) ℓ) (ρ : Dev nD → PrngReg) (c : Dev nD)

/-- The first hidden layer, of the launch memory. -/
def L1 : FVec Ideal S100000x128 .f32 := layerRelu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
/-- The second hidden layer. -/
def L2 : FVec Ideal S100000x128 .f32 := layerRelu (L1 m c) (m ((c : Thread nD τ).loc main_arg1)) (m ((c : Thread nD τ).loc main_arg2)) (m ((c : Thread nD τ).loc main_arg6)) (m ((c : Thread nD τ).loc main_arg7)) (m ((c : Thread nD τ).loc main_arg8))
/-- The output convolution. -/
def L3 : FVec Ideal S100000x128 .f32 := layerLin (L2 m c) (m ((c : Thread nD τ).loc main_arg1)) (m ((c : Thread nD τ).loc main_arg2)) (m ((c : Thread nD τ).loc main_arg9)) (m ((c : Thread nD τ).loc main_arg10)) (m ((c : Thread nD τ).loc main_arg11))
/-- The class logits. -/
def LG : FVec Ideal S100000x40 .f32 := classify (L3 m c) (m ((c : Thread nD τ).loc main_arg12)) (m ((c : Thread nD τ).loc main_arg13))

/-! ## Region 0 -/

theorem w4_v19 : W4 m ρ c (Proc.devRef .tc main_v19) = L1 m c := by
  refine (W4_arr m ρ c 5).trans ((Cert.KernelIdeal.Region0.final (V3 m ρ) c).trans ?_)
  have e0 : V3 m ρ c main_arg0 = (m ((c : Thread nD τ).loc main_arg0)) := keep0_main_arg0 (W0 m ρ c)
  have e1 : V3 m ρ c main_v17 = agg (m ((c : Thread nD τ).loc main_arg0)) (m ((c : Thread nD τ).loc main_arg1)) (m ((c : Thread nD τ).loc main_arg2)) := mean0 (W0 m ρ c)
  have e2 : V3 m ρ c main_arg3 = (m ((c : Thread nD τ).loc main_arg3)) := keep0_main_arg3 (W0 m ρ c)
  have e3 : V3 m ρ c main_arg4 = (m ((c : Thread nD τ).loc main_arg4)) := keep0_main_arg4 (W0 m ρ c)
  have e4 : V3 m ρ c main_v18 = shapeCast S1x128 (m ((c : Thread nD τ).loc main_arg5)) shapeCasts_S128_S1x128 := bias_main_v18 (W0 m ρ c)
  rw [e0, e1, e2, e3, e4]
  rfl

theorem w4_main_arg1 : W4 m ρ c (Proc.devRef .tc main_arg1) = m ((c : Thread nD τ).loc main_arg1) :=
  (W4_of_ne m ρ c main_arg1 (by decide)).trans (keep0_main_arg1 (W0 m ρ c))
theorem w4_main_arg2 : W4 m ρ c (Proc.devRef .tc main_arg2) = m ((c : Thread nD τ).loc main_arg2) :=
  (W4_of_ne m ρ c main_arg2 (by decide)).trans (keep0_main_arg2 (W0 m ρ c))
theorem w4_main_arg6 : W4 m ρ c (Proc.devRef .tc main_arg6) = m ((c : Thread nD τ).loc main_arg6) :=
  (W4_of_ne m ρ c main_arg6 (by decide)).trans (keep0_main_arg6 (W0 m ρ c))
theorem w4_main_arg7 : W4 m ρ c (Proc.devRef .tc main_arg7) = m ((c : Thread nD τ).loc main_arg7) :=
  (W4_of_ne m ρ c main_arg7 (by decide)).trans (keep0_main_arg7 (W0 m ρ c))
theorem w4_main_arg8 : W4 m ρ c (Proc.devRef .tc main_arg8) = m ((c : Thread nD τ).loc main_arg8) :=
  (W4_of_ne m ρ c main_arg8 (by decide)).trans (keep0_main_arg8 (W0 m ρ c))
theorem w4_main_arg9 : W4 m ρ c (Proc.devRef .tc main_arg9) = m ((c : Thread nD τ).loc main_arg9) :=
  (W4_of_ne m ρ c main_arg9 (by decide)).trans (keep0_main_arg9 (W0 m ρ c))
theorem w4_main_arg10 : W4 m ρ c (Proc.devRef .tc main_arg10) = m ((c : Thread nD τ).loc main_arg10) :=
  (W4_of_ne m ρ c main_arg10 (by decide)).trans (keep0_main_arg10 (W0 m ρ c))
theorem w4_main_arg11 : W4 m ρ c (Proc.devRef .tc main_arg11) = m ((c : Thread nD τ).loc main_arg11) :=
  (W4_of_ne m ρ c main_arg11 (by decide)).trans (keep0_main_arg11 (W0 m ρ c))
theorem w4_main_arg12 : W4 m ρ c (Proc.devRef .tc main_arg12) = m ((c : Thread nD τ).loc main_arg12) :=
  (W4_of_ne m ρ c main_arg12 (by decide)).trans (keep0_main_arg12 (W0 m ρ c))
theorem w4_main_arg13 : W4 m ρ c (Proc.devRef .tc main_arg13) = m ((c : Thread nD τ).loc main_arg13) :=
  (W4_of_ne m ρ c main_arg13 (by decide)).trans (keep0_main_arg13 (W0 m ρ c))

/-! ## Region 1 -/

theorem w8_v39 : W8 m ρ c (Proc.devRef .tc main_v39) = L2 m c := by
  refine (W8_arr m ρ c 5).trans ((Cert.KernelIdeal.Region1.final (V7 m ρ) c).trans ?_)
  have e0 : V7 m ρ c main_v19 = L1 m c := (keep1_main_v19 (W4 m ρ c)).trans (w4_v19 m ρ c)
  have e1 : V7 m ρ c main_v37 = agg (L1 m c) (m ((c : Thread nD τ).loc main_arg1)) (m ((c : Thread nD τ).loc main_arg2)) := by
    refine (mean1 (W4 m ρ c)).trans ?_
    rw [w4_v19 m ρ c, w4_main_arg1 m ρ c, w4_main_arg2 m ρ c]
  have e2 : V7 m ρ c main_arg6 = (m ((c : Thread nD τ).loc main_arg6)) := (keep1_main_arg6 (W4 m ρ c)).trans (w4_main_arg6 m ρ c)
  have e3 : V7 m ρ c main_arg7 = (m ((c : Thread nD τ).loc main_arg7)) := (keep1_main_arg7 (W4 m ρ c)).trans (w4_main_arg7 m ρ c)
  have e4 : V7 m ρ c main_v38 = shapeCast S1x128 (m ((c : Thread nD τ).loc main_arg8)) shapeCasts_S128_S1x128 := by
    refine (bias_main_v38 (W4 m ρ c)).trans ?_
    rw [w4_main_arg8 m ρ c]
  rw [e0, e1, e2, e3, e4]
  rfl

theorem w8_main_arg1 : W8 m ρ c (Proc.devRef .tc main_arg1) = m ((c : Thread nD τ).loc main_arg1) :=
  (W8_of_ne m ρ c main_arg1 (by decide)).trans ((keep1_main_arg1 (W4 m ρ c)).trans (w4_main_arg1 m ρ c))
theorem w8_main_arg2 : W8 m ρ c (Proc.devRef .tc main_arg2) = m ((c : Thread nD τ).loc main_arg2) :=
  (W8_of_ne m ρ c main_arg2 (by decide)).trans ((keep1_main_arg2 (W4 m ρ c)).trans (w4_main_arg2 m ρ c))
theorem w8_main_arg9 : W8 m ρ c (Proc.devRef .tc main_arg9) = m ((c : Thread nD τ).loc main_arg9) :=
  (W8_of_ne m ρ c main_arg9 (by decide)).trans ((keep1_main_arg9 (W4 m ρ c)).trans (w4_main_arg9 m ρ c))
theorem w8_main_arg10 : W8 m ρ c (Proc.devRef .tc main_arg10) = m ((c : Thread nD τ).loc main_arg10) :=
  (W8_of_ne m ρ c main_arg10 (by decide)).trans ((keep1_main_arg10 (W4 m ρ c)).trans (w4_main_arg10 m ρ c))
theorem w8_main_arg11 : W8 m ρ c (Proc.devRef .tc main_arg11) = m ((c : Thread nD τ).loc main_arg11) :=
  (W8_of_ne m ρ c main_arg11 (by decide)).trans ((keep1_main_arg11 (W4 m ρ c)).trans (w4_main_arg11 m ρ c))
theorem w8_main_arg12 : W8 m ρ c (Proc.devRef .tc main_arg12) = m ((c : Thread nD τ).loc main_arg12) :=
  (W8_of_ne m ρ c main_arg12 (by decide)).trans ((keep1_main_arg12 (W4 m ρ c)).trans (w4_main_arg12 m ρ c))
theorem w8_main_arg13 : W8 m ρ c (Proc.devRef .tc main_arg13) = m ((c : Thread nD τ).loc main_arg13) :=
  (W8_of_ne m ρ c main_arg13 (by decide)).trans ((keep1_main_arg13 (W4 m ρ c)).trans (w4_main_arg13 m ρ c))

/-! ## Region 2 -/

theorem v11_v39 : V11 m ρ c main_v39 = L2 m c := (keep2_main_v39 (W8 m ρ c)).trans (w8_v39 m ρ c)
theorem v11_v57 : V11 m ρ c main_v57 = agg (L2 m c) (m ((c : Thread nD τ).loc main_arg1)) (m ((c : Thread nD τ).loc main_arg2)) := by
  refine (mean2 (W8 m ρ c)).trans ?_
  rw [w8_v39 m ρ c, w8_main_arg1 m ρ c, w8_main_arg2 m ρ c]
theorem v11_arg9 : V11 m ρ c main_arg9 = (m ((c : Thread nD τ).loc main_arg9)) := (keep2_main_arg9 (W8 m ρ c)).trans (w8_main_arg9 m ρ c)
theorem v11_arg10 : V11 m ρ c main_arg10 = (m ((c : Thread nD τ).loc main_arg10)) := (keep2_main_arg10 (W8 m ρ c)).trans (w8_main_arg10 m ρ c)
theorem v11_v58 : V11 m ρ c main_v58 = shapeCast S1x128 (m ((c : Thread nD τ).loc main_arg11)) shapeCasts_S128_S1x128 := by
  refine (bias_main_v58 (W8 m ρ c)).trans ?_
  rw [w8_main_arg11 m ρ c]
theorem v11_arg12 : V11 m ρ c main_arg12 = (m ((c : Thread nD τ).loc main_arg12)) := (keep2_main_arg12 (W8 m ρ c)).trans (w8_main_arg12 m ρ c)
theorem v11_v59 : V11 m ρ c main_v59 = shapeCast S1x40 (m ((c : Thread nD τ).loc main_arg13)) shapeCasts_S40_S1x40 := by
  refine (bias_main_v59 (W8 m ρ c)).trans ?_
  rw [w8_main_arg13 m ρ c]

/-- The last layer's features end at the output convolution. -/
theorem w12_feat : W12 m ρ c (Proc.devRef .tc main_v60_0) = L3 m c := by
  refine (W12_arr m ρ c 7).trans ((Cert.KernelIdeal.Region2.final_feat (V11 m ρ) c).trans ?_)
  rw [v11_v39 m ρ c, v11_v57 m ρ c, v11_arg9 m ρ c, v11_arg10 m ρ c, v11_v58 m ρ c]
  rfl

/-- The logits end at the classifier of the output convolution. -/
theorem w12_logits : W12 m ρ c (Proc.devRef .tc main_v60_1) = LG m c := by
  refine (W12_arr m ρ c 8).trans ((Cert.KernelIdeal.Region2.final_logits (V11 m ρ) c).trans ?_)
  rw [v11_v39 m ρ c, v11_v57 m ρ c, v11_arg9 m ρ c, v11_arg10 m ρ c, v11_v58 m ρ c, v11_arg12 m ρ c, v11_v59 m ρ c]
  rfl

end Cert.KernelIdeal.Chain

end
-- ==== Proof.RefSpec.lean ====
/-
  The reference's two results as SAGE convolutions over the neighbour mean.

  The host program computes, three times, the mean of every node's in-neighbours' features (`agg`: a gather of the
  source rows, a scatter-add by destination, divided by the clipped in-degree), two matrix products, their sum and a
  bias, rectified after the first two.  Its generated run states each result as one composed term; here that term is
  folded back into `agg` and the convolution it feeds, and each convolution is read as `Cert.Sage.conv` /
  `convRelu` / `head` of its operands.  The aggregation itself is never opened.
-/
import proofs.«108537_j10161892622801_1_alg».proof.Proof.Gen.ReferenceIdeal.Run
import proofs.«108537_j10161892622801_1_alg».proof.Proof.LibSageConv

set_option maxRecDepth 16384

noncomputable section

namespace Cert.ReferenceIdeal.RefValue

open Cert.ReferenceIdeal Cert.ReferenceIdeal.Gen Idealize.ShloMosaic Idealize.ShloMosaic.TcCoe Idealize.SL.Sem
open Cert.Dense Cert.BiasRow

/-- The mean of each node's in-neighbours' feature rows, as the host computes it: rows gathered at the (wrapped)
    source indices, summed into their destination rows, divided by the in-degree clipped below at one. -/
def agg (h : FVec Ideal S100000x128 .f32) (src dst : IVec S1600000 32) : FVec Ideal S100000x128 .f32 :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src)))) (broadcastInDim S100000x128 ![0, 1] bcast_S100000x1_S100000x128_0_1 (broadcastInDim S100000x1 ![0] bcast_S100000_S100000x1_0 (maximumf (broadcastInDim S100000 ![] bcast_S_S100000 (id (constant S_ .f32 0x3F800000#32))) (Host.scatterAdd scatter_S100000_S1600000x1_S1600000_n_0_0_1 (broadcastInDim S100000 ![] bcast_S_S100000 (constant S_ .f32 0x00000000#32)) (broadcastInDim S1600000x1 ![0] bcast_S1600000_S1600000x1_0 dst) (broadcastInDim S1600000 ![] bcast_S_S1600000 (constant S_ .f32 0x3F800000#32))))))

/-- One convolution as the host spells it. -/
def hconv (h : FVec Ideal S100000x128 .f32) (src dst : IVec S1600000 32) (ws wn : FVec Ideal S128x128 .f32)
    (b : FVec Ideal S128 .f32) : FVec Ideal S100000x128 .f32 :=
  addf (addf (Host.dotGeneral dot_S100000x128_S128x128_S100000x128_1_0_0_1_n_n none h ws) (Host.dotGeneral dot_S100000x128_S128x128_S100000x128_1_0_0_1_n_n none (agg h src dst) wn)) (broadcastInDim S100000x128 ![0, 1] bcast_S1x128_S100000x128_0_1 (broadcastInDim S1x128 ![1] bcast_S128_S1x128_1 b))

/-- The host's rectifier. -/
def hrelu (x : FVec Ideal S100000x128 .f32) : FVec Ideal S100000x128 .f32 :=
  maximumf x (broadcastInDim S100000x128 ![] bcast_S_S100000x128 (constant S_ .f32 0x00000000#32))

/-- The host's classifier. -/
def hhead (x : FVec Ideal S100000x128 .f32) (w : FVec Ideal S128x40 .f32) (b : FVec Ideal S40 .f32) : FVec Ideal S100000x40 .f32 :=
  addf (Host.dotGeneral dot_S100000x128_S128x40_S100000x40_1_0_0_1_n_n none x w) (broadcastInDim S100000x40 ![0, 1] bcast_S1x40_S100000x40_0_1 (broadcastInDim S1x40 ![1] bcast_S40_S1x40_1 b))

variable (m : (ℓ : Loc nD τ sig) → Buf (Elt Ideal) ℓ) (c : Dev nD)

/-- The first hidden layer. -/
def h1 : FVec Ideal S100000x128 .f32 := hrelu (hconv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
/-- The second hidden layer. -/
def h2 : FVec Ideal S100000x128 .f32 := hrelu (hconv (h1 m c) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)))
/-- The output convolution. -/
def h3 : FVec Ideal S100000x128 .f32 := hconv (h2 m c) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11))
/-- The class logits. -/
def logits : FVec Ideal S100000x40 .f32 := hhead (h3 m c) (m ((c.tc : Thread nD τ).loc main_arg12)) (m ((c.tc : Thread nD τ).loc main_arg13))

/-- The run's composed term of the output convolution is the three layers, folded. -/
theorem res_h3 : Value.res_main_v73 (F := Ideal) m c = h3 m c := by
  unfold Value.res_main_v73 h3 h2 h1 hconv hrelu agg
  rfl

/-- The run's composed term of the logits is the classifier over the three layers, folded. -/
theorem res_logits : Value.res_main_v77 (F := Ideal) m c = logits m c := by
  unfold Value.res_main_v77 logits hhead h3 h2 h1 hconv hrelu agg
  rfl

/-! ## Each host layer is the specification's -/

theorem hrelu_hconv (h : FVec Ideal S100000x128 .f32) (src dst : IVec S1600000 32) (ws wn : FVec Ideal S128x128 .f32)
    (b : FVec Ideal S128 .f32) :
    hrelu (hconv h src dst ws wn b) = Cert.Sage.convRelu h (agg h src dst) ws wn (row b) := by
  unfold hrelu hconv
  rw [hostReluBias, hostDot_eq_mm _ rfl rfl rfl rfl rfl rfl, hostDot_eq_mm _ rfl rfl rfl rfl rfl rfl]
  rfl

theorem hconv_eq (h : FVec Ideal S100000x128 .f32) (src dst : IVec S1600000 32) (ws wn : FVec Ideal S128x128 .f32)
    (b : FVec Ideal S128 .f32) :
    hconv h src dst ws wn b = Cert.Sage.conv h (agg h src dst) ws wn (row b) := by
  unfold hconv
  rw [hostAddRow, hostDot_eq_mm _ rfl rfl rfl rfl rfl rfl, hostDot_eq_mm _ rfl rfl rfl rfl rfl rfl]
  rfl

theorem hhead_eq (x : FVec Ideal S100000x128 .f32) (w : FVec Ideal S128x40 .f32) (b : FVec Ideal S40 .f32) :
    hhead x w b = Cert.Sage.head x w (row b) := by
  unfold hhead
  rw [hostAddRow, hostDot_eq_mm _ rfl rfl rfl rfl rfl rfl]
  rfl

end Cert.ReferenceIdeal.RefValue

end
-- ==== Proof.Bridge.lean ====
/-
  The kernel's layers are the reference's.

  Both programs aggregate neighbours with the same host operations, so the two means are one function; the kernel's
  bias is the vector cast to one row and the reference's the vector broadcast to one row, the same row; and each side's
  layer was read as the same convolution on the extended reals.  From memories that agree on the fourteen arguments
  the three layers and the logits therefore coincide.
-/
import proofs.«108537_j10161892622801_1_alg».proof.Proof.KChain
import proofs.«108537_j10161892622801_1_alg».proof.Proof.RefSpec

set_option maxRecDepth 16384

noncomputable section

namespace Cert.Proof.Bridge

open Idealize.ShloMosaic Idealize.ShloMosaic.TcCoe Idealize.SL.Sem
open Cert.Dense Cert.BiasRow Cert.Sage

/-- The two programs' neighbour means are one function: the same operations with the same dimension numbers. -/
theorem agg_eq (h : FVec Ideal Cert.KernelIdeal.S100000x128 .f32) (src dst : IVec Cert.KernelIdeal.S1600000 32) :
    Cert.KernelIdeal.HostSide.agg h src dst = Cert.ReferenceIdeal.RefValue.agg h src dst := rfl

theorem layerRelu_eq (x : FVec Ideal Cert.KernelIdeal.S100000x128 .f32) (src dst : IVec Cert.KernelIdeal.S1600000 32)
    (ws wn : FVec Ideal Cert.KernelIdeal.S128x128 .f32) (b : FVec Ideal Cert.KernelIdeal.S128 .f32) :
    Cert.ReferenceIdeal.RefValue.hrelu (Cert.ReferenceIdeal.RefValue.hconv x src dst ws wn b)
      = Cert.KernelIdeal.Chain.layerRelu x src dst ws wn b := by
  rw [Cert.ReferenceIdeal.RefValue.hrelu_hconv]
  unfold Cert.KernelIdeal.Chain.layerRelu
  rw [agg_eq, shapeCast_row]

theorem layerLin_eq (x : FVec Ideal Cert.KernelIdeal.S100000x128 .f32) (src dst : IVec Cert.KernelIdeal.S1600000 32)
    (ws wn : FVec Ideal Cert.KernelIdeal.S128x128 .f32) (b : FVec Ideal Cert.KernelIdeal.S128 .f32) :
    Cert.ReferenceIdeal.RefValue.hconv x src dst ws wn b = Cert.KernelIdeal.Chain.layerLin x src dst ws wn b := by
  rw [Cert.ReferenceIdeal.RefValue.hconv_eq]
  unfold Cert.KernelIdeal.Chain.layerLin
  rw [agg_eq, shapeCast_row]

theorem classify_eq (x : FVec Ideal Cert.KernelIdeal.S100000x128 .f32) (w : FVec Ideal Cert.KernelIdeal.S128x40 .f32)
    (b : FVec Ideal Cert.KernelIdeal.S40 .f32) :
    Cert.ReferenceIdeal.RefValue.hhead x w b = Cert.KernelIdeal.Chain.classify x w b := by
  rw [Cert.ReferenceIdeal.RefValue.hhead_eq]
  unfold Cert.KernelIdeal.Chain.classify
  rw [shapeCast_row]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The output convolutions coincide on agreeing arguments. -/
theorem feat_eq (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RefValue.h3 m' c = Cert.KernelIdeal.Chain.L3 m c := by
  obtain ⟨a0, a1, a2, a3, a4, a5, a6, a7, a8, a9, a10, a11, a12, a13⟩ := hagree
  unfold Cert.ReferenceIdeal.RefValue.h3 Cert.ReferenceIdeal.RefValue.h2 Cert.ReferenceIdeal.RefValue.h1
  rw [a0, a1, a2, a3, a4, a5, a6, a7, a8, a9, a10, a11]
  rw [layerRelu_eq, layerRelu_eq, layerLin_eq]
  rfl

/-- The logits coincide on agreeing arguments. -/
theorem logits_eq (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.RefValue.logits m' c = Cert.KernelIdeal.Chain.LG m c := by
  unfold Cert.ReferenceIdeal.RefValue.logits Cert.KernelIdeal.Chain.LG
  rw [feat_eq m m' c hagree]
  obtain ⟨a0, a1, a2, a3, a4, a5, a6, a7, a8, a9, a10, a11, a12, a13⟩ := hagree
  rw [a12, a13, classify_eq]

end Cert.Proof.Bridge

end
-- ==== Proof.lean ====
/-
  Three GraphSAGE convolutions with mean aggregation and a linear classifier, as a Pallas kernel pipeline against
  its jnp reference, on the extended reals.

  Both programs compute the neighbour mean on the host with the same gather, scatter-add, clip and divide.  The kernel
  does the dense part of each convolution — `h·Ws + mean·Wn + b`, rectified in the two hidden layers, and the
  classifier `h₃·W + b` fused into the last one — block of rows by block of rows on the matrix unit, with bf16 operands;
  the reference does it with whole-array dot products.  On the extended reals rounding to bf16 is the identity, a
  matmul into a zero accumulator is the matrix product, and a row of a convolution depends only on the same row of
  the features and of the means, so the twenty blocks of rows each region writes back assemble the same arrays the
  reference computes.  No law beyond the definitions is used, so the precondition is never opened.

  The frames of the two kernel programs are the generated ones; the reference's is its generated run with the results
  dropped; the ideal pass rewrote nothing, so `preserves` is trivial.
-/
import proofs.«108537_j10161892622801_1_alg».proof.Defs
import proofs.«108537_j10161892622801_1_alg».proof.Proof.Gen.Kernel
import proofs.«108537_j10161892622801_1_alg».proof.Proof.Gen.Kernel.Frame
import proofs.«108537_j10161892622801_1_alg».proof.Proof.Gen.KernelIdeal
import proofs.«108537_j10161892622801_1_alg».proof.Proof.Gen.KernelIdeal.Frame
import proofs.«108537_j10161892622801_1_alg».proof.Proof.Gen.ReferenceIdeal
import proofs.«108537_j10161892622801_1_alg».proof.Proof.Gen.ReferenceIdeal.Run
import proofs.«108537_j10161892622801_1_alg».proof.Proof.Gen.Pre_finite_inputs
import proofs.«108537_j10161892622801_1_alg».proof.Proof.KRun
import proofs.«108537_j10161892622801_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments the kernel's two result arrays end at the output convolution and its
    classifier, which are the reference's two results. -/
theorem algebraic : Cert.algebraic_KernelIdeal_ReferenceIdeal := by
  intro m ρ m' ρ' _ hagree
  refine ⟨fun c => Cert.KernelIdeal.Chain.LG m c, fun c => Cert.KernelIdeal.Chain.L3 m c, ?_, ?_⟩
  · exact (θ_run Cert.KernelIdeal.defs _ _).mono
      (fun r h c => ⟨(h c).1.trans (Cert.KernelIdeal.Chain.w12_logits m ρ c),
        (h c).2.1.trans (Cert.KernelIdeal.Chain.w12_feat m ρ c), (h c).2.2⟩)
      (Cert.KernelIdeal.Named.run (F := Ideal) m ρ)
  · exact (θ_run Cert.ReferenceIdeal.defs _ _).mono
      (fun r h c => ⟨(h c).1.trans ((Cert.ReferenceIdeal.RefValue.res_logits m' c).trans (Bridge.logits_eq m m' c (hagree c))),
        (h c).2.1.trans ((Cert.ReferenceIdeal.RefValue.res_h3 m' c).trans (Bridge.feat_eq m m' c (hagree c))), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
